-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000x64 : Shape := ⟨2, ![800000, 64]⟩
abbrev S64x128 : Shape := ⟨2, ![64, 128]⟩
abbrev S50000 : Shape := ⟨1, ![50000]⟩
abbrev S448x512 : Shape := ⟨2, ![448, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x128 : S_.BroadcastsInDim S64x128 (![] : Fin 0 → Fin S64x128.rank)
  reducesTo_S64x128_S_d0_1 : S64x128.ReducesTo [0, 1] S_
  bcast_S_S448x512 : S_.BroadcastsInDim S448x512 (![] : Fin 0 → Fin S448x512.rank)
  reducesTo_S448x512_S_d0_1 : S448x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S512 .f32) (main_arg7 : FVec F S512x256 .f32) (main_arg8 : FVec F S256 .f32) (main_v13 : IVec S_ 1) (main_v16 : IVec S448x512 1) : IVec S_ 1 :=
  let main_c_5 : IVec S_ 1 := constantI S_ 1 1#1
  let main_v17 : IVec S_ 1 := (fun x v => Host.reduce IntOp.andi x v reducesTo_S448x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg7
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S800000x64 .f32) (main_arg3 : FVec F S64x128 .f32) (main_arg4 : IVec S50000 32) (main_arg5 : FVec F S448x512 .f32) (main_arg6 : FVec F S512 .f32) (main_arg7 : FVec F S512x256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S448x512 .f32 := Host.absf main_arg5
  let main_cst_4 : FVec F S_ .f32 := constant S_ .f32 0x7F800000#32
  let main_v15 : FVec F S448x512 .f32 := broadcastInDim S448x512 ![] bcast_S_S448x512 main_cst_4
  let main_v16 : IVec S448x512 1 := cmpf .olt main_v14 main_v15
  fn_part1 (F := F) main_arg6 main_arg7 main_arg8 main_v13 main_v16
-- ==== Kernel.lean ====
abbrev S50000x256 : Shape := ⟨2, ![50000, 256]⟩
abbrev S2x800000 : Shape := ⟨2, ![2, 800000]⟩
abbrev S800000x64 : Shape := ⟨2, ![800000, 64]⟩
abbrev S64x128 : Shape := ⟨2, ![64, 128]⟩
abbrev S50000 : Shape := ⟨1, ![50000]⟩
abbrev S448x512 : Shape := ⟨2, ![448, 512]⟩
abbrev S512 : Shape := ⟨1, ![512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000x64 : Shape := ⟨2, ![50000, 64]⟩
abbrev S800000x1 : Shape := ⟨2, ![800000, 1]⟩
abbrev S50000x1 : Shape := ⟨2, ![50000, 1]⟩
abbrev S50000x128 : Shape := ⟨2, ![50000, 128]⟩
abbrev S1x512 : Shape := ⟨2, ![1, 512]⟩
abbrev S1x256 : Shape := ⟨2, ![1, 256]⟩
abbrev S2000x256 : Shape := ⟨2, ![2000, 256]⟩
abbrev S2000x64 : Shape := ⟨2, ![2000, 64]⟩
abbrev S2000x128 : Shape := ⟨2, ![2000, 128]⟩
abbrev S2000x448 : Shape := ⟨2, ![2000, 448]⟩
abbrev S2000x512 : Shape := ⟨2, ![2000, 512]⟩

abbrev nBuf : Space → Nat
  | .hbm => 39
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x64, .f32⟩
  | .hbm, ⟨3, _⟩ => ⟨S64x128, .f32⟩
  | .hbm, ⟨4, _⟩ => ⟨S50000, .i32⟩
  | .hbm, ⟨5, _⟩ => ⟨S448x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x64, .f32⟩
  | .hbm, ⟨13, _⟩ => ⟨S800000x1, .i32⟩
  | .hbm, ⟨14, _⟩ => ⟨S50000x64, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x64, .f32⟩
  | .hbm, ⟨26, _⟩ => ⟨S50000x64, .f32⟩
  | .hbm, ⟨27, _⟩ => ⟨S_, .i32⟩
  | .hbm, ⟨28, _⟩ => ⟨S50000, .i32⟩
  | .hbm, ⟨29, _⟩ => ⟨S50000, .i1⟩
  | .hbm, ⟨30, _⟩ => ⟨S_, .i32⟩
  | .hbm, ⟨31, _⟩ => ⟨S50000, .i32⟩
  | .hbm, ⟨32, _⟩ => ⟨S50000, .i32⟩
  | .hbm, ⟨33, _⟩ => ⟨S50000, .i32⟩
  | .hbm, ⟨34, _⟩ => ⟨S50000x1, .i32⟩
  | .hbm, ⟨35, _⟩ => ⟨S50000x128, .f32⟩
  | .hbm, ⟨36, _⟩ => ⟨S1x512, .f32⟩
  | .hbm, ⟨37, _⟩ => ⟨S1x256, .f32⟩
  | .hbm, ⟨38, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x64, .f32⟩
  | .local _ .vmem, ⟨3, _⟩ => ⟨S2000x64, .f32⟩
  | .local _ .vmem, ⟨4, _⟩ => ⟨S2000x128, .f32⟩
  | .local _ .vmem, ⟨5, _⟩ => ⟨S2000x128, .f32⟩
  | .local _ .vmem, ⟨6, _⟩ => ⟨S448x512, .f32⟩
  | .local _ .vmem, ⟨7, _⟩ => ⟨S1x512, .f32⟩
  | .local _ .vmem, ⟨8, _⟩ => ⟨S512x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S448x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S512_S1x512 : S512.ShapeCasts S1x512
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x256_S2000x64_S2000x128_S2000x448_d1 : Shape.Concatenates [S2000x256, S2000x64, S2000x128] S2000x448 1
  bitsLt_bf16_f32 : FTy.bits .bf16 < FTy.bits .f32
  inb_S448x512_S448x512_0_0 : ∀ a, (![0, 0] : Fin 2 → Nat) a + S448x512.size a ≤ S448x512.size a
  h_S448x512 : 0 < S448x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S64x128_S50000x1_S50000x128_1_0_n_n_0_1_1128_wf : GatherDims.WF S64x128 S50000x1 S50000x128 [1] [0] [] [0] [] 1 ![1, 128]
  dot_S2000x448_S448x512_S2000x512_1_0_0_1_n_n_wf : DotDims.WF S2000x448 S448x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S448x512.size a ≤ S448x512.size a
  hwx0_3 : ∀ i : grid0.Coords, EltTy.bits .f32 = 32 ∨ (Rect.block (s := S448x512) S448x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def dot_S2000x448_S448x512_S2000x512_1_0_0_1_n_n : DotDims S2000x448 S448x512 S2000x512 where
  lhsContracting := [1]
  rhsContracting := [0]
  lhsNonContracting := [0]
  rhsNonContracting := [1]
  lhsBatch := []
  rhsBatch := []
  wf := dot_S2000x448_S448x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S448x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000x64 : Shape := ⟨2, ![800000, 64]⟩
abbrev S64x128 : Shape := ⟨2, ![64, 128]⟩
abbrev S50000 : Shape := ⟨1, ![50000]⟩
abbrev S448x512 : Shape := ⟨2, ![448, 512]⟩
abbrev S512 : Shape := ⟨1, ![512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000x64 : Shape := ⟨2, ![50000, 64]⟩
abbrev S800000x1 : Shape := ⟨2, ![800000, 1]⟩
abbrev S50000x1 : Shape := ⟨2, ![50000, 1]⟩
abbrev S50000x128 : Shape := ⟨2, ![50000, 128]⟩
abbrev S50000x448 : Shape := ⟨2, ![50000, 448]⟩
abbrev S50000x512 : Shape := ⟨2, ![50000, 512]⟩
abbrev S1x512 : Shape := ⟨2, ![1, 512]⟩
abbrev S1x256 : Shape := ⟨2, ![1, 256]⟩

abbrev nBuf : Space → Nat
  | .hbm => 48
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x64, .f32⟩
  | .hbm, ⟨3, _⟩ => ⟨S64x128, .f32⟩
  | .hbm, ⟨4, _⟩ => ⟨S50000, .i32⟩
  | .hbm, ⟨5, _⟩ => ⟨S448x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x64, .f32⟩
  | .hbm, ⟨13, _⟩ => ⟨S800000x1, .i32⟩
  | .hbm, ⟨14, _⟩ => ⟨S50000x64, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x64, .f32⟩
  | .hbm, ⟨26, _⟩ => ⟨S50000x64, .f32⟩
  | .hbm, ⟨27, _⟩ => ⟨S_, .i32⟩
  | .hbm, ⟨28, _⟩ => ⟨S50000, .i32⟩
  | .hbm, ⟨29, _⟩ => ⟨S50000, .i1⟩
  | .hbm, ⟨30, _⟩ => ⟨S_, .i32⟩
  | .hbm, ⟨31, _⟩ => ⟨S50000, .i32⟩
  | .hbm, ⟨32, _⟩ => ⟨S50000, .i32⟩
  | .hbm, ⟨33, _⟩ => ⟨S50000, .i32⟩
  | .hbm, ⟨34, _⟩ => ⟨S50000x1, .i32⟩
  | .hbm, ⟨35, _⟩ => ⟨S50000x128, .f32⟩
  | .hbm, ⟨36, _⟩ => ⟨S50000x448, .f32⟩
  | .hbm, ⟨37, _⟩ => ⟨S50000x512, .f32⟩
  | .hbm, ⟨38, _⟩ => ⟨S1x512, .f32⟩
  | .hbm, ⟨39, _⟩ => ⟨S50000x512, .f32⟩
  | .hbm, ⟨40, _⟩ => ⟨S50000x512, .f32⟩
  | .hbm, ⟨41, _⟩ => ⟨S_, .f32⟩
  | .hbm, ⟨42, _⟩ => ⟨S50000x512, .f32⟩
  | .hbm, ⟨43, _⟩ => ⟨S50000x512, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_cst : Ref sig .tc := ⟨.hbm, 41, rfl⟩
abbrev main_call0_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x256_S50000x64_S50000x128_S50000x448_d1 : Shape.Concatenates [S50000x256, S50000x64, S50000x128] S50000x448 1
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S64x128_S50000x1_S50000x128_1_0_n_n_0_1_1128_wf : GatherDims.WF S64x128 S50000x1 S50000x128 [1] [0] [] [0] [] 1 ![1, 128]
  dot_S50000x448_S448x512_S50000x512_1_0_0_1_n_n_wf : DotDims.WF S50000x448 S448x512 S50000x512 [1] [0] [0] [1] [] []
  dot_S50000x512_S512x256_S50000x256_1_0_0_1_n_n_wf : DotDims.WF S50000x512 S512x256 S50000x256 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def dot_S50000x448_S448x512_S50000x512_1_0_0_1_n_n : DotDims S50000x448 S448x512 S50000x512 where
  lhsContracting := [1]
  rhsContracting := [0]
  lhsNonContracting := [0]
  rhsNonContracting := [1]
  lhsBatch := []
  rhsBatch := []
  wf := dot_S50000x448_S448x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.LibThreeBlocks.lean ====
/-
  Three matrices of equal height set side by side, read at coordinates.

  The concatenation `[x0 | x1 | x2]` along the column axis reads, at `(a, b)`, the block that column `b` falls in, at
  `(a, b - the widths before it)`. The three cases are stated one by one, and once more as a single equation: row `a`
  of the concatenation is the row `row3` made of row `a` of each block.
-/
import Idealize.ShloMosaic.Lib.ValueIdx
import Idealize.ShloMosaic.Lib.Pipeline.Value

namespace Cert.LibThreeBlocks

open Idealize.ShloMosaic Idealize.ShloMosaic.ValueIdx

variable {α : Type}

/-- Three rows of widths `w0`, `w1`, `w2` set side by side, as one row of width `B = w0 + w1 + w2`. -/
def row3 {w0 w1 w2 B : ℕ} (hB : w0 + w1 + w2 = B) (r0 : Fin w0 → α) (r1 : Fin w1 → α) (r2 : Fin w2 → α) (k : Fin B) : α :=
  if h0 : k.val < w0 then r0 ⟨k.val, h0⟩
  else if h1 : k.val < w0 + w1 then r1 ⟨k.val - w0, by omega⟩
  else r2 ⟨k.val - (w0 + w1), by have := k.isLt; omega⟩

/-- `row3` of rows that agree entry by entry. -/
theorem row3_congr {w0 w1 w2 B : ℕ} (hB : w0 + w1 + w2 = B) {r0 r0' : Fin w0 → α} {r1 r1' : Fin w1 → α} {r2 r2' : Fin w2 → α}
    (h0 : ∀ k, r0 k = r0' k) (h1 : ∀ k, r1 k = r1' k) (h2 : ∀ k, r2 k = r2' k) :
    row3 hB r0 r1 r2 = row3 hB r0' r1' r2' := by
  obtain rfl := funext h0
  obtain rfl := funext h1
  obtain rfl := funext h2
  rfl

section Three
variable {A w0 w1 w2 B : ℕ}
  (x0 : (⟨2, ![A, w0]⟩ : Shape).Idx → α) (x1 : (⟨2, ![A, w1]⟩ : Shape).Idx → α)
  (x2 : (⟨2, ![A, w2]⟩ : Shape).Idx → α)
  (h : Shape.Concatenates [⟨2, ![A, w0]⟩, ⟨2, ![A, w1]⟩, ⟨2, ![A, w2]⟩] ⟨2, ![A, B]⟩ 1)
  (a : Fin A) (b : Fin B)

/-- `[x0 | x1 | x2]` at a column of the first block. -/
theorem cat3_0 (hb : b.val < w0) :
    concatenate ⟨2, ![A, B]⟩ 1 [⟨⟨2, ![A, w0]⟩, x0⟩, ⟨⟨2, ![A, w1]⟩, x1⟩, ⟨⟨2, ![A, w2]⟩, x2⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat3_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat3_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- Row `a` of `[x0 | x1 | x2]` is row `a` of each block, set side by side. -/
theorem cat3_apply (hB : w0 + w1 + w2 = B) :
    concatenate ⟨2, ![A, B]⟩ 1 [⟨⟨2, ![A, w0]⟩, x0⟩, ⟨⟨2, ![A, w1]⟩, x1⟩, ⟨⟨2, ![A, w2]⟩, x2⟩] h (ix2 a b)
      = row3 hB (fun k => x0 (ix2 a k)) (fun k => x1 (ix2 a k)) (fun k => x2 (ix2 a k)) b := by
  unfold row3
  have hlt := b.isLt
  by_cases h0 : b.val < w0
  · rw [dif_pos h0]; exact cat3_0 x0 x1 x2 h a b h0
  · rw [dif_neg h0]
    by_cases h1 : b.val < w0 + w1
    · rw [dif_pos h1]; exact cat3_1 x0 x1 x2 h a b (by omega) (by omega)
    · rw [dif_neg h1]; exact cat3_2 x0 x1 x2 h a b (by omega) (by omega)

end Three

end Cert.LibThreeBlocks
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.TwoLayer.lean ====
/-
  A two-layer perceptron applied to one feature row, over the extended reals.

  For a feature row `r` of width K, weights `W1` (K × H) and `W2` (H × O) and biases `b1`, `b2`:
  hidden unit `h` is `max (∑ k, r k · W1 k h + b1 h) 0`, and output `j` is `∑ h, hidden h · W2 h j + b2 j`.
  Both programs of this certificate compute, in row `n` of their result, this function of row `n` of the joined
  feature matrix; nothing here needs the entries to be finite.
-/
import Idealize.ShloMosaic.PureOps.Ideal

noncomputable section

namespace Cert.TwoLayer

open Idealize.ShloMosaic

/-- Hidden unit `h` of the row `r`: its product with column `h` of the first weight matrix, plus the bias, clipped below at zero. -/
def hiddenAt {K H : ℕ} (r : Fin K → EReal) (W1 : Fin K → Fin H → EReal) (b1 : Fin H → EReal) (h : Fin H) : EReal :=
  max ((∑ k : Fin K, r k * W1 k h) + b1 h) 0

/-- Output `j` of the row `r`: the hidden row's product with column `j` of the second weight matrix, plus the bias. -/
def outAt {K H O : ℕ} (r : Fin K → EReal) (W1 : Fin K → Fin H → EReal) (b1 : Fin H → EReal)
    (W2 : Fin H → Fin O → EReal) (b2 : Fin O → EReal) (j : Fin O) : EReal :=
  (∑ h : Fin H, hiddenAt r W1 b1 h * W2 h j) + b2 j

/-- `outAt` of rows, weights and biases that agree entry by entry. -/
theorem outAt_congr {K H O : ℕ} {r r' : Fin K → EReal} {W1 W1' : Fin K → Fin H → EReal} {b1 b1' : Fin H → EReal}
    {W2 W2' : Fin H → Fin O → EReal} {b2 b2' : Fin O → EReal} (hr : r = r') (hW1 : ∀ k h, W1 k h = W1' k h)
    (hb1 : ∀ h, b1 h = b1' h) (hW2 : ∀ h j, W2 h j = W2' h j) (hb2 : ∀ j, b2 j = b2' j) (j : Fin O) :
    outAt r W1 b1 W2 b2 j = outAt r' W1' b1' W2' b2' j := by
  obtain rfl := hr
  obtain rfl : W1 = W1' := funext fun k => funext fun h => hW1 k h
  obtain rfl := funext hb1
  obtain rfl : W2 = W2' := funext fun h => funext fun j => hW2 h j
  obtain rfl := funext hb2
  rfl

end Cert.TwoLayer

end
-- ==== Proof.KernelTile.lean ====
/-
  The kernel body's arithmetic on one tile of 2000 nodes, read at coordinates.

  From a tile's blocks of `x`, `agg` and `ue` (2000 rows each) and the whole weights and biases, the body joins
  `[x | agg | ue]` into a 2000 × 448 matrix, multiplies it by `W1` into a zero accumulator, adds the bias row to every
  row, clips below at zero, multiplies by `W2` into a zero accumulator and adds the second bias row to every row. On the
  extended reals the changes of float format are the identity, so at `(p, q)` the stored tile is the two-layer
  perceptron `TwoLayer.outAt` of row `p` of the joined tile.
-/
import proofs.«147600_j5428838662515_1_alg».proof.Proof.Gen.KernelIdeal.Skeleton
import proofs.«147600_j5428838662515_1_alg».proof.Proof.LibThreeBlocks
import proofs.«147600_j5428838662515_1_alg».proof.Proof.LibColumnBlocks
import proofs.«147600_j5428838662515_1_alg».proof.Proof.LibRowOps
import proofs.«147600_j5428838662515_1_alg».proof.Proof.TwoLayer
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open Cert.LibThreeBlocks Cert.LibColumnBlocks Cert.LibRowOps Cert.TwoLayer

/-- The hidden layer of the tile at `(p, h)`. -/
theorem hidden_apply (x0 : Vec Ideal S2000x256 .f32) (x1 : Vec Ideal S2000x64 .f32) (x2 : Vec Ideal S2000x128 .f32)
    (w1 : Vec Ideal S448x512 .f32) (b1 : Vec Ideal S1x512 .f32) (p : Fin 2000) (h : Fin 512) :
    maximumf (F := Ideal)
        (addf (matmul dot_S2000x448_S448x512_S2000x512_1_0_0_1_n_n none
            (truncf .bf16 (concatenate S2000x448 1 [⟨S2000x256, x0⟩, ⟨S2000x64, shapeCast S2000x64 x1 shapeCasts_S2000x64_S2000x64⟩,
              ⟨S2000x128, shapeCast S2000x128 x2 shapeCasts_S2000x128_S2000x128⟩] concatenates_S2000x256_S2000x64_S2000x128_S2000x448_d1) bitsLt_bf16_f32)
            (truncf .bf16 w1 bitsLt_bf16_f32) (constant S2000x512 .f32 0x00000000#32))
          (broadcastTo S2000x512 (shapeCast S1x512 b1 shapeCasts_S1x512_S1x512) broadcasts_S1x512_S2000x512))
        (broadcast S2000x512 (Scalar.ofBits .f32 0x00000000#32)) (ix2 p h)
      = hiddenAt (row3 (B := 448) rfl (fun k => x0 (ix2 p k)) (fun k => x1 (ix2 p k)) (fun k => x2 (ix2 p k)))
          (fun k h => w1 (ix2 k h)) (fun h => b1 (ix2 0 h)) h := by
  rw [maximumf_apply, addf_apply, broadcast_apply,
    matmul_zero_apply dot_S2000x448_S448x512_S2000x512_1_0_0_1_n_n rfl rfl rfl rfl (fun _ _ => rfl) (fun _ _ => rfl),
    bcast_1b_ab, shapeCast_self, shapeCast_self, shapeCast_self]
  show max _ (Ideal.ofBits .f32 0x00000000#32) = _
  rw [Ideal.ofBits_zero_f32]
  unfold hiddenAt
  congr 2
  refine Finset.sum_congr rfl fun k _ => ?_
  rw [truncf_apply, truncf_apply, cat3_apply _ _ _ _ p k rfl]

/-- The stored tile at `(p, q)`: the perceptron of row `p` of the joined tile. -/
theorem pay_apply (x0 : Vec Ideal S2000x256 .f32) (x1 : Vec Ideal S2000x64 .f32) (x2 : Vec Ideal S2000x128 .f32)
    (w1 : Vec Ideal S448x512 .f32) (b1 : Vec Ideal S1x512 .f32) (w2 : Vec Ideal S512x256 .f32) (b2 : Vec Ideal S1x256 .f32)
    (p : Fin 2000) (q : Fin 256) :
    k0_pay1 (F := Ideal) x0 x1 x2 w1 b1 w2 b2 (ix2 p q)
      = outAt (row3 (B := 448) rfl (fun k => x0 (ix2 p k)) (fun k => x1 (ix2 p k)) (fun k => x2 (ix2 p k)))
          (fun k h => w1 (ix2 k h)) (fun h => b1 (ix2 0 h)) (fun h j => w2 (ix2 h j)) (fun j => b2 (ix2 0 j)) q := by
  unfold k0_pay1
  rw [addf_apply,
    matmul_zero_apply dot_S2000x512_S512x256_S2000x256_1_0_0_1_n_n rfl rfl rfl rfl (fun _ _ => rfl) (fun _ _ => rfl),
    bcast_1b_ab, shapeCast_self b2 shapeCasts_S1x256_S1x256]
  unfold outAt
  congr 1
  refine Finset.sum_congr rfl fun h _ => ?_
  rw [truncf_apply, truncf_apply, hidden_apply]

end Cert.KernelIdeal.Tile

end
-- ==== Proof.KernelBlocks.lean ====
/-
  The kernel's tiling, read at coordinates.

  The launch has 25 points. At point `t` the three row-tiled inputs and the output are at block row `t` (2000 rows per
  block, the only column block), and the weights and bias rows at their only block. So entry `(p, k)` of a row-tiled
  block at point `t` is entry `(2000 t + p, k)` of its array, an entry of a whole block is the same entry of the
  array, and the 25 output blocks cover the result: row `r` lies in the block of point `r / 2000`.
-/
import proofs.«147600_j5428838662515_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

/-- The block index maps over the grid: the three row-tiled inputs and the output sit at block row `t`, column block 0;
    the weights and bias rows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem points : cfg0.N = 25 := by decide +kernel

/-- The node that row `p` of point `t`'s tile belongs to. -/
def node (t : Fin cfg0.N) (p : Fin 2000) : Fin 50000 :=
  ⟨t.val * 2000 + p.val, by have ht : t.val < 25 := lt_of_lt_of_eq t.isLt points; have hp := p.isLt; omega⟩

theorem node_val (t : Fin cfg0.N) (p : Fin 2000) : (node t p).val = t.val * 2000 + p.val := rfl

/-! ## Each window's block at a point, read at coordinates (for any contents of the window's array) -/

variable (c : Dev nD) (t : Fin cfg0.N)

theorem x_blk (A : Buf (Elt Ideal) ((cfg0.win 0).arr.view.loc (c.tc : Thread nD τ))) (p : Fin 2000) (k : Fin 256) :
    ((cfg0.win 0).blk t).view.read (Elt Ideal) A (ix2 p k) = A (ix2 (node t p) k) := by
  obtain ⟨e0, e1, -⟩ := idx_facts t
  show A (((cfg0.win 0).blk t).view.emb (ix2 p k)) = _
  refine congrArg A (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 256 + 1 * k.val = k.val; rw [e1]; omega

theorem agg_blk (A : Buf (Elt Ideal) ((cfg0.win 1).arr.view.loc (c.tc : Thread nD τ))) (p : Fin 2000) (k : Fin 64) :
    ((cfg0.win 1).blk t).view.read (Elt Ideal) A (ix2 p k) = A (ix2 (node t p) k) := by
  obtain ⟨-, -, e0, e1, -⟩ := idx_facts t
  show A (((cfg0.win 1).blk t).view.emb (ix2 p k)) = _
  refine congrArg A (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 64 + 1 * k.val = k.val; rw [e1]; omega

theorem ue_blk (A : Buf (Elt Ideal) ((cfg0.win 2).arr.view.loc (c.tc : Thread nD τ))) (p : Fin 2000) (k : Fin 128) :
    ((cfg0.win 2).blk t).view.read (Elt Ideal) A (ix2 p k) = A (ix2 (node t p) k) := by
  obtain ⟨-, -, -, -, e0, e1, -⟩ := idx_facts t
  show A (((cfg0.win 2).blk t).view.emb (ix2 p k)) = _
  refine congrArg A (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 128 + 1 * k.val = k.val; rw [e1]; omega

theorem w1_blk (A : Buf (Elt Ideal) ((cfg0.win 3).arr.view.loc (c.tc : Thread nD τ))) (k : Fin 448) (h : Fin 512) :
    ((cfg0.win 3).blk t).view.read (Elt Ideal) A (ix2 k h) = A (ix2 k h) := by
  obtain ⟨-, -, -, -, -, -, e0, e1, -⟩ := idx_facts t
  show A (((cfg0.win 3).blk t).view.emb (ix2 k h)) = _
  refine congrArg A (funext fun a => Fin.ext ?_)
  match a with
  | ⟨0, _⟩ => show win0_3.index t (0 : Fin 2) * 448 + 1 * k.val = k.val; rw [e0]; omega
  | ⟨1, _⟩ => show win0_3.index t (1 : Fin 2) * 512 + 1 * h.val = h.val; rw [e1]; omega

theorem b1_blk (A : Buf (Elt Ideal) ((cfg0.win 4).arr.view.loc (c.tc : Thread nD τ))) (z : Fin 1) (h : Fin 512) :
    ((cfg0.win 4).blk t).view.read (Elt Ideal) A (ix2 z h) = A (ix2 z h) := by
  obtain ⟨-, -, -, -, -, -, -, -, e0, e1, -⟩ := idx_facts t
  show A (((cfg0.win 4).blk t).view.emb (ix2 z h)) = _
  refine congrArg A (funext fun a => Fin.ext ?_)
  match a with
  | ⟨0, _⟩ => show win0_4.index t (0 : Fin 2) * 1 + 1 * z.val = z.val; rw [e0]; omega
  | ⟨1, _⟩ => show win0_4.index t (1 : Fin 2) * 512 + 1 * h.val = h.val; rw [e1]; omega

theorem w2_blk (A : Buf (Elt Ideal) ((cfg0.win 5).arr.view.loc (c.tc : Thread nD τ))) (h : Fin 512) (j : Fin 256) :
    ((cfg0.win 5).blk t).view.read (Elt Ideal) A (ix2 h j) = A (ix2 h j) := by
  obtain ⟨-, -, -, -, -, -, -, -, -, -, e0, e1, -⟩ := idx_facts t
  show A (((cfg0.win 5).blk t).view.emb (ix2 h j)) = _
  refine congrArg A (funext fun a => Fin.ext ?_)
  match a with
  | ⟨0, _⟩ => show win0_5.index t (0 : Fin 2) * 512 + 1 * h.val = h.val; rw [e0]; omega
  | ⟨1, _⟩ => show win0_5.index t (1 : Fin 2) * 256 + 1 * j.val = j.val; rw [e1]; omega

theorem b2_blk (A : Buf (Elt Ideal) ((cfg0.win 6).arr.view.loc (c.tc : Thread nD τ))) (z : Fin 1) (j : Fin 256) :
    ((cfg0.win 6).blk t).view.read (Elt Ideal) A (ix2 z j) = A (ix2 z j) := by
  obtain ⟨-, -, -, -, -, -, -, -, -, -, -, -, e0, e1, -⟩ := idx_facts t
  show A (((cfg0.win 6).blk t).view.emb (ix2 z j)) = _
  refine congrArg A (funext fun a => Fin.ext ?_)
  match a with
  | ⟨0, _⟩ => show win0_6.index t (0 : Fin 2) * 1 + 1 * z.val = z.val; rw [e0]; omega
  | ⟨1, _⟩ => show win0_6.index t (1 : Fin 2) * 256 + 1 * j.val = j.val; rw [e1]; omega

/-- Entry `(p, q)` of point `t`'s output block is entry `(2000 t + p, q)` of the array. -/
theorem out_emb (p : Fin 2000) (q : Fin 256) :
    ((cfg0.win 7).blk t).view.emb (ix2 p q) = ix2 (node t p) q := by
  obtain ⟨-, -, -, -, -, -, -, -, -, -, -, -, -, -, e0, e1⟩ := idx_facts t
  funext a
  apply Fin.ext
  match a with
  | ⟨0, _⟩ => show win0_7.index t (0 : Fin 2) * 2000 + 1 * p.val = t.val * 2000 + p.val; rw [e0]; omega
  | ⟨1, _⟩ => show win0_7.index t (1 : Fin 2) * 256 + 1 * q.val = q.val; rw [e1]; omega

/-- An index of the result is in point `t`'s block iff each coordinate is in the block's range on its axis. -/
theorem mem_blk (i : S50000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v23).slice (win0_7.rect t)).set ↔ _
  rw [View.set_slice_whole, Rect.mem_set_unit]
  exact Iff.rfl

/-- Every index of the result lies in the block of the point its row falls to. -/
theorem cover (i : S50000x256.Idx) : ∃ t : Fin cfg0.N, (cfg0.win 7).flush t = true ∧ i ∈ ((cfg0.win 7).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, lt_of_lt_of_eq (by omega : (i 0).val / 2000 < 25) points.symm⟩, rfl⟩
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; rw [e0, ht]; omega
  | ⟨1, _⟩ => show win0_7.index t (1 : Fin 2) * 256 ≤ (i 1).val ∧ (i 1).val < win0_7.index t (1 : Fin 2) * 256 + 256; rw [e1]; omega

end Cert.KernelIdeal.Blocks

end
-- ==== Proof.KernelEntry.lean ====
/-
  What the kernel's region finds in the windows that the host wrote before it.

  Before the tiled launch the host computes, from the arguments, the per-node mean of the edge features
  (`edgeMean`: the edge rows summed into their source node's row, divided by the number of edges of that node, at least
  one), the per-node copy of the global features (`globalRows`: row `batch n` of `u`, the index wrapped once if
  negative), and the two biases recast as one-row matrices. The region's windows 1, 2, 4 and 6 hold exactly these
  arrays, as functions of the argument arrays at launch.
-/
import proofs.«147600_j5428838662515_1_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem Idealize.ShloMosaic.StableHlo

/-- The mean of the edge features over the edges leaving each node (zero for a node with no edge). -/
def edgeMean (ei : (⟨S2x800000, .i32⟩ : BufTy).Contents (Elt Ideal)) (ea : FVec Ideal S800000x64 .f32) :
    FVec Ideal S50000x64 .f32 :=
  Host.divf (F := Ideal)
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0
        (shapeCast _ (extractStridedSlice S1x800000 ![0, 0] ei slices_S2x800000_S1x800000_0_0) shapeCasts_S1x800000_S800000))
      ea)
    (broadcastInDim S50000x64 ![0, 1] bcast_S50000x1_S50000x64_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0
              (shapeCast _ (extractStridedSlice S1x800000 ![0, 0] ei slices_S2x800000_S1x800000_0_0) shapeCasts_S1x800000_S800000))
            (broadcastInDim S800000 ![] bcast_S_S800000 (constant S_ .f32 0x3F800000#32)))
          (broadcastInDim S50000 ![] bcast_S_S50000 (constant S_ .f32 0x3F800000#32)))))

/-- Each node's row of global features: row `batch n` of `u` (a negative index wrapped by 64 first). -/
def globalRows (u : FVec Ideal S64x128 .f32) (batch : (⟨S50000, .i32⟩ : BufTy).Contents (Elt Ideal)) :
    FVec Ideal S50000x128 .f32 :=
  Host.gather gather_S64x128_S50000x1_S50000x128_1_0_n_n_0_1_1128 u
    (broadcastInDim S50000x1 ![0] bcast_S50000_S50000x1_0
      (select (cmpi .slt batch (broadcastInDim S50000 ![] bcast_S_S50000 (constantI S_ 32 0#32)))
        (addi batch (broadcastInDim S50000 ![] bcast_S_S50000 (constantI S_ 32 64#32))) batch))

variable (m : (ℓ : Loc nD τ sig) → Buf (Elt Ideal) ℓ)

/-- Window 1's array at region entry is the edge mean of the arguments. -/
theorem V_v13 (c : Dev nD) :
    (V m c main_v13 : S50000x64.Idx → EReal) = edgeMean (m ((c : Thread nD τ).loc main_arg1)) (m ((c : Thread nD τ).loc main_arg2)) := by
  dsimp only [Gen.V, Gen.hostOps0]
  after_results
  rfl

set_option maxHeartbeats 2000000 in
/-- Window 2's array at region entry is the gathered global rows of the arguments. -/
theorem V_v20 (c : Dev nD) :
    (V m c main_v20 : S50000x128.Idx → EReal) = globalRows (m ((c : Thread nD τ).loc main_arg3)) (m ((c : Thread nD τ).loc main_arg4)) := by
  dsimp only [Gen.V, Gen.hostOps0]
  after_results
  rfl

/-- Window 4's array at region entry is the first bias as a one-row matrix. -/
theorem V_v21 (c : Dev nD) :
    (V m c main_v21 : S1x512.Idx → EReal) = shapeCast S1x512 (m ((c : Thread nD τ).loc main_arg6)) shapeCasts_S512_S1x512 := by
  dsimp only [Gen.V, Gen.hostOps0]
  after_results
  rfl

/-- Window 6's array at region entry is the second bias as a one-row matrix. -/
theorem V_v22 (c : Dev nD) :
    (V m c main_v22 : S1x256.Idx → EReal) = shapeCast S1x256 (m ((c : Thread nD τ).loc main_arg8)) shapeCasts_S256_S1x256 := by
  dsimp only [Gen.V, Gen.hostOps0]
  after_results
  rfl

end Cert.KernelIdeal.Entry

end
-- ==== Proof.NodeOut.lean ====
/-
  The result both programs compute, as one function of seven arrays.

  For node features `x` (50000 × 256), per-node edge means `agg` (50000 × 64), per-node global rows `ue` (50000 × 128),
  weights `W1` (448 × 512), `W2` (512 × 256) and biases `b1`, `b2`: entry `(n, j)` of the result is output `j` of the
  two-layer perceptron applied to row `n` of `[x | agg | ue]`.
-/
import proofs.«147600_j5428838662515_1_alg».proof.Proof.LibThreeBlocks
import proofs.«147600_j5428838662515_1_alg».proof.Proof.TwoLayer
import Idealize.ShloMosaic.Lib.ValueIdx

noncomputable section

namespace Cert.NodeOut

open Idealize.ShloMosaic Idealize.ShloMosaic.ValueIdx Cert.LibThreeBlocks Cert.TwoLayer

/-- Row `n` of the joined feature matrix `[x | agg | ue]`. -/
def features (x : (⟨2, ![50000, 256]⟩ : Shape).Idx → EReal) (agg : (⟨2, ![50000, 64]⟩ : Shape).Idx → EReal)
    (ue : (⟨2, ![50000, 128]⟩ : Shape).Idx → EReal) (n : Fin 50000) : Fin 448 → EReal :=
  row3 (B := 448) rfl (fun k => x (ix2 n k)) (fun k => agg (ix2 n k)) (fun k => ue (ix2 n k))

/-- The result array: the perceptron of each node's joined feature row. -/
def nodeOut (x : (⟨2, ![50000, 256]⟩ : Shape).Idx → EReal) (agg : (⟨2, ![50000, 64]⟩ : Shape).Idx → EReal)
    (ue : (⟨2, ![50000, 128]⟩ : Shape).Idx → EReal) (W1 : (⟨2, ![448, 512]⟩ : Shape).Idx → EReal)
    (b1 : (⟨1, ![512]⟩ : Shape).Idx → EReal) (W2 : (⟨2, ![512, 256]⟩ : Shape).Idx → EReal)
    (b2 : (⟨1, ![256]⟩ : Shape).Idx → EReal) : (⟨2, ![50000, 256]⟩ : Shape).Idx → EReal :=
  fun i => outAt (features x agg ue (i 0)) (fun k h => W1 (ix2 k h)) (fun h => b1 (ix1 h)) (fun h j => W2 (ix2 h j))
    (fun j => b2 (ix1 j)) (i 1)

end Cert.NodeOut

end
-- ==== Proof.KernelWhole.lean ====
/-
  From the tiles to the whole result array of the kernel.

  Point `t` reads rows `2000 t … 2000 t + 1999` of `x`, of the edge means and of the global rows, the whole weights and
  bias rows, and writes back rows `2000 t … 2000 t + 1999` of the result. Row `p` of the tile it writes is the
  perceptron of row `p` of the joined tile (KernelTile), which is row `2000 t + p` of the joined matrix (KernelBlocks):
  so what point `t` writes back is block `t` of one function, `ofEntry`, of the arrays the region finds. The 25 blocks
  cover the array, so the array ends as `ofEntry` of the entry arrays, which in turn are the arguments, the host's edge
  mean and gathered rows, and the biases as one-row matrices (KernelEntry): that is `NodeOut.nodeOut`.
-/
import proofs.«147600_j5428838662515_1_alg».proof.Proof.Gen.KernelIdeal.Value
import proofs.«147600_j5428838662515_1_alg».proof.Proof.KernelTile
import proofs.«147600_j5428838662515_1_alg».proof.Proof.KernelBlocks
import proofs.«147600_j5428838662515_1_alg».proof.Proof.KernelEntry
import proofs.«147600_j5428838662515_1_alg».proof.Proof.NodeOut
import Idealize.ShloMosaic.Lib.Pipeline.Value
import Idealize.ShloMosaic.Lib.ValueIdx
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.LibThreeBlocks Cert.TwoLayer Cert.NodeOut

theorem hz : (![0, 0] : Fin 2 → Nat) = fun _ => 0 := funext fun a => by fin_cases a <;> rfl

/-- The result as a function of the seven arrays the region finds: the biases there are one-row matrices. -/
def ofEntry (X : S50000x256.Idx → EReal) (AGG : S50000x64.Idx → EReal) (UE : S50000x128.Idx → EReal)
    (W1 : S448x512.Idx → EReal) (B1 : S1x512.Idx → EReal) (W2 : S512x256.Idx → EReal) (B2 : S1x256.Idx → EReal) :
    S50000x256.Idx → EReal :=
  fun i => outAt (features X AGG UE (i 0)) (fun k h => W1 (ix2 k h)) (fun h => B1 (ix2 0 h)) (fun h j => W2 (ix2 h j))
    (fun j => B2 (ix2 0 j)) (i 1)

/-- The body's result on the blocks of point `t`, for any contents of the seven input arrays, is block `t` of `ofEntry`
    of those arrays. -/
theorem tile_eq (c : Dev nD) (t : Fin cfg0.N)
    (A0 : Buf (Elt Ideal) ((cfg0.win 0).arr.view.loc (c.tc : Thread nD τ)))
    (A1 : Buf (Elt Ideal) ((cfg0.win 1).arr.view.loc (c.tc : Thread nD τ)))
    (A2 : Buf (Elt Ideal) ((cfg0.win 2).arr.view.loc (c.tc : Thread nD τ)))
    (A3 : Buf (Elt Ideal) ((cfg0.win 3).arr.view.loc (c.tc : Thread nD τ)))
    (A4 : Buf (Elt Ideal) ((cfg0.win 4).arr.view.loc (c.tc : Thread nD τ)))
    (A5 : Buf (Elt Ideal) ((cfg0.win 5).arr.view.loc (c.tc : Thread nD τ)))
    (A6 : Buf (Elt Ideal) ((cfg0.win 6).arr.view.loc (c.tc : Thread nD τ))) :
    (cfg0.win 7).cut (grid0.coords t)
        (out0_7 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6))
      = ((cfg0.win 7).blk t).view.read (Elt Ideal) (ofEntry A0 A1 A2 A3 A4 A5 A6) := by
  unfold out0_7
  rw [View.canon_unit_zero hz]
  simp only [View.ld_unit_zero (S := S2000x256) hz, View.ld_unit_zero (S := S2000x64) hz, View.ld_unit_zero (S := S2000x128) hz,
    View.ld_unit_zero (S := S448x512) hz, View.ld_unit_zero (S := S1x512) hz, View.ld_unit_zero (S := S512x256) hz,
    View.ld_unit_zero (S := S1x256) hz]
  refine funext fun (y : S2000x256.Idx) => ?_
  obtain ⟨p, q, rfl⟩ : ∃ (p : Fin 2000) (q : Fin 256), y = ix2 p q := ⟨y 0, y 1, eq_ix2 y⟩
  show k0_pay1 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6) (ix2 p q)
    = ofEntry A0 A1 A2 A3 A4 A5 A6 (((cfg0.win 7).blk t).view.emb (ix2 p q))
  rw [Blocks.out_emb]
  refine (Tile.pay_apply _ _ _ _ _ _ _ p q).trans ?_
  exact outAt_congr (row3_congr rfl (fun k => Blocks.x_blk c t A0 p k) (fun k => Blocks.agg_blk c t A1 p k) (fun k => Blocks.ue_blk c t A2 p k))
    (fun k h => Blocks.w1_blk c t A3 k h) (fun h => Blocks.b1_blk c t A4 0 h) (fun h j => Blocks.w2_blk c t A5 h j)
    (fun j => Blocks.b2_blk c t A6 0 j) q

end Cert.KernelIdeal.Whole

end
-- ==== Proof.KernelRun.lean ====
/-
  The kernel's whole run, with its result named.

  What each point writes back is a block of `Whole.ofEntry` of the arrays the region finds (KernelWhole), and the blocks
  cover the result, so after the run the result array is `ofEntry` of those arrays. They are the arguments, the host's
  edge mean and gathered rows, and the biases recast as one-row matrices (KernelEntry); reading a recast bias in its one
  row gives the bias back, so the result is `NodeOut.nodeOut` of the arguments, the edge mean and the gathered rows.
-/
import proofs.«147600_j5428838662515_1_alg».proof.Proof.KernelWhole

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.LibThreeBlocks Cert.TwoLayer Cert.NodeOut

variable (m : (ℓ : Loc nD τ sig) → Buf (Elt Ideal) ℓ) (ρ : Dev nD → PrngReg)

/-- What point `t` writes back is block `t` of `ofEntry` of the arrays the region finds. -/
theorem flushed_eq (c : Dev nD) (t : Fin cfg0.N) :
    (dats m 0 c).flushed 7 t = ((cfg0.win 7).blk t).view.read (Elt Ideal)
      (ofEntry (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
        (V m c (Pipeline.arrRef spec0 6))) := by
  rw [Value.flushed7]
  unfold iblk
  exact tile_eq c t _ _ _ _ _ _ _

/-- The result array after the run, over the arrays the region finds. -/
theorem final_entry (c : Dev nD) :
    (dats m 0 c).arrAt 7 cfg0.N = ofEntry (V m c main_arg0) (V m c main_v13) (V m c main_v20) (V m c main_arg5)
      (V m c main_v21) (V m c main_arg7) (V m c main_v22) :=
  (dats m 0 c).arrAt_eq_of_cover 7 _ (fun t _ => flushed_eq m c t) Blocks.cover

/-- A bias recast as a one-row matrix, read in its row, is the bias. -/
theorem row_of_cast {B : ℕ} (b : (⟨1, ![B]⟩ : Shape).Idx → EReal) (h : (⟨1, ![B]⟩ : Shape).ShapeCasts ⟨2, ![1, B]⟩) (j : Fin B) :
    shapeCast ⟨2, ![1, B]⟩ b h (ix2 0 j) = b (ix1 j) := shapeCast_a_1a_apply b h 0 j

/-- With the biases recast as rows, `ofEntry` is `nodeOut`. -/
theorem ofEntry_cast (X : S50000x256.Idx → EReal) (AGG : S50000x64.Idx → EReal) (UE : S50000x128.Idx → EReal)
    (W1 : S448x512.Idx → EReal) (b1 : S512.Idx → EReal) (W2 : S512x256.Idx → EReal) (b2 : S256.Idx → EReal) :
    ofEntry X AGG UE W1 (shapeCast S1x512 b1 shapeCasts_S512_S1x512) W2 (shapeCast S1x256 b2 shapeCasts_S256_S1x256)
      = nodeOut X AGG UE W1 b1 W2 b2 := by
  funext i
  exact outAt_congr rfl (fun _ _ => rfl) (fun h => row_of_cast b1 _ h) (fun _ _ => rfl) (fun j => row_of_cast b2 _ j) (i 1)

/-- The result array after the run, as `nodeOut` of the arguments, the host's edge mean and its gathered rows. -/
theorem final (c : Dev nD) :
    (dats m 0 c).arrAt 7 cfg0.N = nodeOut (m ((c : Thread nD τ).loc main_arg0))
      (Entry.edgeMean (m ((c : Thread nD τ).loc main_arg1)) (m ((c : Thread nD τ).loc main_arg2)))
      (Entry.globalRows (m ((c : Thread nD τ).loc main_arg3)) (m ((c : Thread nD τ).loc main_arg4)))
      (m ((c : Thread nD τ).loc main_arg5)) (m ((c : Thread nD τ).loc main_arg6))
      (m ((c : Thread nD τ).loc main_arg7)) (m ((c : Thread nD τ).loc main_arg8)) := by
  rw [final_entry, V_main_arg0 m c, Entry.V_v13 m c, Entry.V_v20 m c, V_main_arg5 m c, Entry.V_v21 m c, V_main_arg7 m c,
    Entry.V_v22 m c]
  exact ofEntry_cast _ _ _ _ _ _ _

/-- The kernel's run with its result array named. -/
theorem run : θ_run defs (onTc (τ := τ) (main (F := Ideal))) ⟨m, fun _ => 0, ρ⟩ fun r => ∀ c : Dev nD,
      r.2.mem ((c : Thread nD τ).loc main_v23) = nodeOut (m ((c : Thread nD τ).loc main_arg0))
        (Entry.edgeMean (m ((c : Thread nD τ).loc main_arg1)) (m ((c : Thread nD τ).loc main_arg2)))
        (Entry.globalRows (m ((c : Thread nD τ).loc main_arg3)) (m ((c : Thread nD τ).loc main_arg4)))
        (m ((c : Thread nD τ).loc main_arg5)) (m ((c : Thread nD τ).loc main_arg6))
        (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.RefTail.lean ====
/-
  The reference's last operations, read at coordinates.

  After the edge features have been averaged per node (`agg`) and the global features gathered per node (`ue`), the
  reference joins `[x | agg | ue]` into a 50000 × 448 matrix, multiplies by `W1`, adds `b1` to every row, clips below
  at zero, multiplies by `W2` and adds `b2` to every row. Read at `(n, j)` this is the two-layer perceptron
  `TwoLayer.outAt` of row `n` of the joined matrix: each product is a sum over its contracted coordinate, each bias a
  vector laid out as one row and stretched over all rows.
-/
import proofs.«147600_j5428838662515_1_alg».proof.Proof.Gen.ReferenceIdeal
import proofs.«147600_j5428838662515_1_alg».proof.Proof.LibThreeBlocks
import proofs.«147600_j5428838662515_1_alg».proof.Proof.LibColumnBlocks
import proofs.«147600_j5428838662515_1_alg».proof.Proof.LibCastForms
import proofs.«147600_j5428838662515_1_alg».proof.Proof.TwoLayer
import Idealize.ShloMosaic.Lib.ValueIdx
import Idealize.ShloMosaic.PureOps.Ideal.Laws

noncomputable section

namespace Cert.ReferenceIdeal.Tail

open Cert.ReferenceIdeal Cert.ReferenceIdeal.Gen Idealize.ShloMosaic Idealize.ShloMosaic.ValueIdx
open Cert.LibThreeBlocks Cert.LibColumnBlocks Cert.LibCastForms Cert.TwoLayer

/-- A scalar stretched over a matrix reads the scalar everywhere. -/
theorem splat_apply {A B : ℕ} (x : (⟨0, ![]⟩ : Shape).Idx → EReal)
    (h : (⟨0, ![]⟩ : Shape).BroadcastsInDim ⟨2, ![A, B]⟩ (![] : Fin 0 → Fin 2)) (j : (⟨2, ![A, B]⟩ : Shape).Idx) :
    broadcastInDim ⟨2, ![A, B]⟩ (![] : Fin 0 → Fin 2) h x j = x ix0 :=
  broadcastInDim_apply _ h x _ _ fun d => d.elim0

/-- The reference's last operations as a function of the three feature matrices, the weights and the biases. -/
def tail (x : FVec Ideal S50000x256 .f32) (agg : FVec Ideal S50000x64 .f32) (ue : FVec Ideal S50000x128 .f32)
    (W1 : FVec Ideal S448x512 .f32) (b1 : FVec Ideal S512 .f32) (W2 : FVec Ideal S512x256 .f32) (b2 : FVec Ideal S256 .f32) :
    FVec Ideal S50000x256 .f32 :=
  addf (Host.dotGeneral dot_S50000x512_S512x256_S50000x256_1_0_0_1_n_n none
      (maximumf
        (addf (Host.dotGeneral dot_S50000x448_S448x512_S50000x512_1_0_0_1_n_n none
            (concatenate S50000x448 1 [⟨S50000x256, x⟩, ⟨S50000x64, agg⟩, ⟨S50000x128, ue⟩] concatenates_S50000x256_S50000x64_S50000x128_S50000x448_d1) W1)
          (broadcastInDim S50000x512 ![0, 1] bcast_S1x512_S50000x512_0_1 (broadcastInDim S1x512 ![1] bcast_S512_S1x512_1 b1)))
        (broadcastInDim S50000x512 ![] bcast_S_S50000x512 (constant S_ .f32 0x00000000#32))) W2)
    (broadcastInDim S50000x256 ![0, 1] bcast_S1x256_S50000x256_0_1 (broadcastInDim S1x256 ![1] bcast_S256_S1x256_1 b2))

/-- The hidden layer at `(n, h)`. -/
theorem hidden_apply (x : FVec Ideal S50000x256 .f32) (agg : FVec Ideal S50000x64 .f32) (ue : FVec Ideal S50000x128 .f32)
    (W1 : FVec Ideal S448x512 .f32) (b1 : FVec Ideal S512 .f32) (n : Fin 50000) (h : Fin 512) :
    maximumf
        (addf (Host.dotGeneral dot_S50000x448_S448x512_S50000x512_1_0_0_1_n_n none
            (concatenate S50000x448 1 [⟨S50000x256, x⟩, ⟨S50000x64, agg⟩, ⟨S50000x128, ue⟩] concatenates_S50000x256_S50000x64_S50000x128_S50000x448_d1) W1)
          (broadcastInDim S50000x512 ![0, 1] bcast_S1x512_S50000x512_0_1 (broadcastInDim S1x512 ![1] bcast_S512_S1x512_1 b1)))
        (broadcastInDim S50000x512 ![] bcast_S_S50000x512 (constant S_ .f32 0x00000000#32)) (ix2 n h)
      = hiddenAt (row3 (B := 448) rfl (fun k => x (ix2 n k)) (fun k => agg (ix2 n k)) (fun k => ue (ix2 n k)))
          (fun k h => W1 (ix2 k h)) (fun h => b1 (ix1 h)) h := by
  rw [maximumf_apply, addf_apply, splat_apply, constant_apply, Ideal.ofBits_zero_f32,
    hostDot_apply dot_S50000x448_S448x512_S50000x512_1_0_0_1_n_n rfl rfl rfl rfl (fun _ _ => rfl) (fun _ _ => rfl),
    bcast_1b_ab_apply, bcast_row]
  unfold hiddenAt
  congr 2
  refine Finset.sum_congr rfl fun k _ => ?_
  rw [cat3_apply _ _ _ _ n k rfl]

/-- The reference's last operations at `(n, j)`: the perceptron of row `n` of `[x | agg | ue]`. -/
theorem tail_apply (x : FVec Ideal S50000x256 .f32) (agg : FVec Ideal S50000x64 .f32) (ue : FVec Ideal S50000x128 .f32)
    (W1 : FVec Ideal S448x512 .f32) (b1 : FVec Ideal S512 .f32) (W2 : FVec Ideal S512x256 .f32) (b2 : FVec Ideal S256 .f32)
    (n : Fin 50000) (j : Fin 256) :
    tail x agg ue W1 b1 W2 b2 (ix2 n j)
      = outAt (row3 (B := 448) rfl (fun k => x (ix2 n k)) (fun k => agg (ix2 n k)) (fun k => ue (ix2 n k)))
          (fun k h => W1 (ix2 k h)) (fun h => b1 (ix1 h)) (fun h j => W2 (ix2 h j)) (fun j => b2 (ix1 j)) j := by
  unfold tail
  rw [addf_apply,
    hostDot_apply dot_S50000x512_S512x256_S50000x256_1_0_0_1_n_n rfl rfl rfl rfl (fun _ _ => rfl) (fun _ _ => rfl),
    bcast_1b_ab_apply, bcast_row]
  unfold outAt
  congr 1
  refine Finset.sum_congr rfl fun h _ => ?_
  rw [hidden_apply]

end Cert.ReferenceIdeal.Tail

end
-- ==== Proof.RefWhole.lean ====
/-
  The reference's whole run, with its result named.

  The reference computes the same per-node edge mean and gathered global rows as the kernel's host prefix, then the
  joined matrix, the two products, the biases and the clipping (RefTail). Read at every index, its result is
  `NodeOut.nodeOut` of the arguments, the edge mean and the gathered rows.
-/
import proofs.«147600_j5428838662515_1_alg».proof.Proof.Gen.ReferenceIdeal.Run
import proofs.«147600_j5428838662515_1_alg».proof.Proof.RefTail
import proofs.«147600_j5428838662515_1_alg».proof.Proof.NodeOut
import Idealize.ShloMosaic.Lib.ValueIdx

noncomputable section

namespace Cert.ReferenceIdeal.Whole

open Cert.ReferenceIdeal Cert.ReferenceIdeal.Gen Idealize.ShloMosaic Idealize.ShloMosaic.TcCoe Idealize.SL.Sem Idealize.ShloMosaic.StableHlo
open Idealize.ShloMosaic.ValueIdx Cert.NodeOut

/-- The mean of the edge features over the edges leaving each node (zero for a node with no edge). -/
def edgeMean (ei : (⟨S2x800000, .i32⟩ : BufTy).Contents (Elt Ideal)) (ea : FVec Ideal S800000x64 .f32) :
    FVec Ideal S50000x64 .f32 :=
  Host.divf (F := Ideal)
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0
        (shapeCast _ (extractStridedSlice S1x800000 ![0, 0] ei slices_S2x800000_S1x800000_0_0) shapeCasts_S1x800000_S800000))
      ea)
    (broadcastInDim S50000x64 ![0, 1] bcast_S50000x1_S50000x64_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0
              (shapeCast _ (extractStridedSlice S1x800000 ![0, 0] ei slices_S2x800000_S1x800000_0_0) shapeCasts_S1x800000_S800000))
            (broadcastInDim S800000 ![] bcast_S_S800000 (constant S_ .f32 0x3F800000#32)))
          (broadcastInDim S50000 ![] bcast_S_S50000 (constant S_ .f32 0x3F800000#32)))))

/-- Each node's row of global features: row `batch n` of `u` (a negative index wrapped by 64 first). -/
def globalRows (u : FVec Ideal S64x128 .f32) (batch : (⟨S50000, .i32⟩ : BufTy).Contents (Elt Ideal)) :
    FVec Ideal S50000x128 .f32 :=
  Host.gather gather_S64x128_S50000x1_S50000x128_1_0_n_n_0_1_1128 u
    (broadcastInDim S50000x1 ![0] bcast_S50000_S50000x1_0
      (select (cmpi .slt batch (broadcastInDim S50000 ![] bcast_S_S50000 (constantI S_ 32 0#32)))
        (addi batch (broadcastInDim S50000 ![] bcast_S_S50000 (constantI S_ 32 64#32))) batch))

/-- The reference's last operations are `nodeOut`, as whole arrays. -/
theorem tail_eq (x : FVec Ideal S50000x256 .f32) (agg : FVec Ideal S50000x64 .f32) (ue : FVec Ideal S50000x128 .f32)
    (W1 : FVec Ideal S448x512 .f32) (b1 : FVec Ideal S512 .f32) (W2 : FVec Ideal S512x256 .f32) (b2 : FVec Ideal S256 .f32) :
    Tail.tail x agg ue W1 b1 W2 b2 = nodeOut x agg ue W1 b1 W2 b2 := by
  funext i
  obtain ⟨n, j, rfl⟩ : ∃ (n : Fin 50000) (j : Fin 256), i = ix2 n j := ⟨i 0, i 1, eq_ix2 i⟩
  exact Tail.tail_apply x agg ue W1 b1 W2 b2 n j

/-- The reference's run with its result array named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = nodeOut (m ((c.tc : Thread nD τ).loc main_arg0))
        (edgeMean (m ((c.tc : Thread nD τ).loc main_arg1)) (m ((c.tc : Thread nD τ).loc main_arg2)))
        (globalRows (m ((c.tc : Thread nD τ).loc main_arg3)) (m ((c.tc : Thread nD τ).loc main_arg4)))
        (m ((c.tc : Thread nD τ).loc main_arg5)) (m ((c.tc : Thread nD τ).loc main_arg6))
        (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans
      (tail_eq (m ((c.tc : Thread nD τ).loc main_arg0))
        (edgeMean (m ((c.tc : Thread nD τ).loc main_arg1)) (m ((c.tc : Thread nD τ).loc main_arg2)))
        (globalRows (m ((c.tc : Thread nD τ).loc main_arg3)) (m ((c.tc : Thread nD τ).loc main_arg4)))
        (m ((c.tc : Thread nD τ).loc main_arg5)) (m ((c.tc : Thread nD τ).loc main_arg6))
        (m ((c.tc : Thread nD τ).loc main_arg7)) (m ((c.tc : Thread nD τ).loc main_arg8))), (h c).2⟩)
    (Value.run (F := Ideal) m ρ)

end Cert.ReferenceIdeal.Whole

end
-- ==== Proof.lean ====
/-
  Node update with a global feature: the tiled kernel against the plain reference, over the extended reals.

  Both programs first compute, on the host and by the same operations, the mean of the edge features over the edges
  leaving each node (a scatter-add of the edge rows and of ones into the 50000 nodes, the sums divided by the counts,
  each count at least one) and each node's row of the global features (a gather of `u` by `batch`). Both then apply the
  same two-layer perceptron to every row of the joined matrix `[x | mean | global]` (50000 × 448):
  `out(n, j) = ∑ h, max (∑ k, row n k · W1 k h + b1 h) 0 · W2 h j + b2 j`.
  The reference does it with two whole matrix products; the kernel on 25 tiles of 2000 rows, each tile's products
  accumulated from zero, its operands passed through a narrower float format, which on the extended reals changes nothing.
  The perceptron of a row depends on that row only, so tiling the rows changes nothing either, and the two results are
  the same function `NodeOut.nodeOut` of the arguments — with no use of the inputs' finiteness: no sum is regrouped and
  no factor moved, both sides are literally the same sums.

  The frames of the two kernel programs and the kernel's run block by block are the generated modules'; the reference's
  frame is its generated run with the result dropped. The idealization rewrote no operation, so the `preserves`
  claim is the trivial one.
-/
import proofs.«147600_j5428838662515_1_alg».proof.Defs
import proofs.«147600_j5428838662515_1_alg».proof.Proof.Gen.Kernel
import proofs.«147600_j5428838662515_1_alg».proof.Proof.Gen.Kernel.Frame
import proofs.«147600_j5428838662515_1_alg».proof.Proof.Gen.KernelIdeal
import proofs.«147600_j5428838662515_1_alg».proof.Proof.Gen.KernelIdeal.Frame
import proofs.«147600_j5428838662515_1_alg».proof.Proof.Gen.KernelIdeal.Value
import proofs.«147600_j5428838662515_1_alg».proof.Proof.Gen.ReferenceIdeal
import proofs.«147600_j5428838662515_1_alg».proof.Proof.Gen.ReferenceIdeal.Run
import proofs.«147600_j5428838662515_1_alg».proof.Proof.Gen.Pre_finite_inputs
import proofs.«147600_j5428838662515_1_alg».proof.Proof.KernelRun
import proofs.«147600_j5428838662515_1_alg».proof.Proof.RefWhole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two programs' host operations for the edge mean are the same operations. -/
theorem edgeMean_eq (ei : (⟨Cert.ReferenceIdeal.S2x800000, .i32⟩ : BufTy).Contents (Elt Ideal))
    (ea : FVec Ideal Cert.ReferenceIdeal.S800000x64 .f32) :
    Cert.ReferenceIdeal.Whole.edgeMean ei ea = Cert.KernelIdeal.Entry.edgeMean ei ea := rfl

/-- The two programs' host operations for the gathered global rows are the same operations. -/
theorem globalRows_eq (u : FVec Ideal Cert.ReferenceIdeal.S64x128 .f32)
    (batch : (⟨Cert.ReferenceIdeal.S50000, .i32⟩ : BufTy).Contents (Elt Ideal)) :
    Cert.ReferenceIdeal.Whole.globalRows u batch = Cert.KernelIdeal.Entry.globalRows u batch := rfl

/-- From memories that agree on the arguments, both programs end with the result array `nodeOut` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Whole.run m' ρ')
  obtain ⟨a0, a1, a2, a3, a4, a5, a6, a7, a8⟩ := hagree c
  rw [a0, a1, a2, a3, a4, a5, a6, a7, a8, edgeMean_eq, globalRows_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
